-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S3x128 .f32) (main_arg6 : FVec F S3x128x128 .f32) (main_arg7 : FVec F S128x64 .f32) (main_arg8 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S256x128 .f32) (main_arg3 : FVec F S128 .f32) (main_arg4 : FVec F S3x128x128 .f32) (main_arg5 : FVec F S3x128 .f32) (main_arg6 : FVec F S3x128x128 .f32) (main_arg7 : FVec F S128x64 .f32) (main_arg8 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S800000x128 : Shape := ⟨2, ![800000, 128]⟩
abbrev S1x128x128 : Shape := ⟨3, ![1, 128, 128]⟩
abbrev S128x128 : Shape := ⟨2, ![128, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 96
  | .vmem => 39
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S1x128, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128x128, .f32⟩
  | .hbm, ⟨41, _⟩ => ⟨S128x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128x128, .f32⟩
  | .hbm, ⟨64, _⟩ => ⟨S128x128, .f32⟩
  | .hbm, ⟨65, _⟩ => ⟨S1x128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128x128, .f32⟩
  | .hbm, ⟨87, _⟩ => ⟨S128x128, .f32⟩
  | .hbm, ⟨88, _⟩ => ⟨S1x128x128, .f32⟩
  | .hbm, ⟨89, _⟩ => ⟨S128x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S50000x128, .f32⟩
  | .hbm, ⟨94, _⟩ => ⟨S1x64, .f32⟩
  | .hbm, ⟨95, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x128x128 : Shape := ⟨3, ![1, 128, 128]⟩
abbrev S128x128 : Shape := ⟨2, ![128, 128]⟩
abbrev S50000x64 : Shape := ⟨2, ![50000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S50000x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S1x128x128, .f32⟩
  | .hbm, ⟨54, _⟩ => ⟨S128x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S1x128x128, .f32⟩
  | .hbm, ⟨84, _⟩ => ⟨S128x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S1x128x128, .f32⟩
  | .hbm, ⟨106, _⟩ => ⟨S128x128, .f32⟩
  | .hbm, ⟨107, _⟩ => ⟨S50000x128, .f32⟩
  | .hbm, ⟨108, _⟩ => ⟨S1x128, .f32⟩
  | .hbm, ⟨109, _⟩ => ⟨S128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S1x128x128, .f32⟩
  | .hbm, ⟨114, _⟩ => ⟨S128x128, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S50000x64, .f32⟩
  | .hbm, ⟨121, _⟩ => ⟨S1x64, .f32⟩
  | .hbm, ⟨122, _⟩ => ⟨S50000x64, .f32⟩
  | .hbm, ⟨123, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call1_cst : Ref sig .tc := ⟨.hbm, 57, rfl⟩
abbrev main_call1_v0 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call2_cst : Ref sig .tc := ⟨.hbm, 87, rfl⟩
abbrev main_call2_v0 : Ref sig .tc := ⟨.hbm, 88, rfl⟩
abbrev main_v65 : Ref sig .tc := ⟨.hbm, 89, rfl⟩
abbrev main_c_7 : Ref sig .tc := ⟨.hbm, 90, rfl⟩
abbrev main_v66 : Ref sig .tc := ⟨.hbm, 91, rfl⟩
abbrev main_v67 : Ref sig .tc := ⟨.hbm, 92, rfl⟩
abbrev main_c_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call3_cst : Ref sig .tc := ⟨.hbm, 117, rfl⟩
abbrev main_call3_v0 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with the result array named.

  The program is ten segments: five stretches of host operations alternating with five launches. Its run leaves
  every unscoped buffer at the last boundary's contents `W10`; read at the result buffer this names the final
  result, and read at the nine argument buffers it gives back the arguments as launched.
-/
import proofs.«145428_j53197464928927_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer ends at the last boundary's contents
    and the arguments end as launched. -/
theorem run_named : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.RunValue

end
-- ==== Proof.Spec.lean ====
/-
  A three-layer mean-aggregation graph network over 50000 nodes, as whole-array functions on the extended reals.

  Every dense stage is a matrix product along the feature axis plus a bias that depends on the column only:
    * the input layer   h(n, c) = max (Σ_k x(n, k) · w(k, c) + b(c)) 0          (256 features to 128);
    * a convolution     h'(n, c) = max ((Σ_k a(n, k) · wl(k, c) + Σ_k h(n, k) · wr(k, c)) + b(c)) 0,
      where `a` is the mean of `h` over a node's in-neighbours (128 features to 128);
    * the output layer  y(n, c) = Σ_k h(n, k) · w(k, c) + b(c)                   (128 features to 64).
  The neighbour mean itself (gather along the edges' sources, add into the targets, divide by the in-degree
  clamped below at one) is the same composition of operations in both programs and is never opened here.

  The one law that joins the two programs is in `convLayer_comm`: a convolution may add its bias after the
  first product or after both, because addition on the extended reals is commutative and associative —
  no finiteness is needed.
-/
import Idealize.ShloMosaic.PureOps.Ideal
import Idealize.ShloMosaic.Lib.ValueIdx

noncomputable section

open Idealize.ShloMosaic Idealize.ShloMosaic.ValueIdx
open scoped BigOperators

namespace Cert.MeanConv

/-- Node features, 256 / 128 / 64 per node. -/
abbrev Nx256 : Shape := ⟨2, ![50000, 256]⟩
abbrev Nx128 : Shape := ⟨2, ![50000, 128]⟩
abbrev Nx64 : Shape := ⟨2, ![50000, 64]⟩
/-- Weight matrices, rows indexed by the input feature. -/
abbrev W256x128 : Shape := ⟨2, ![256, 128]⟩
abbrev W128x128 : Shape := ⟨2, ![128, 128]⟩
abbrev W128x64 : Shape := ⟨2, ![128, 64]⟩

/-- One entry of the input layer: row `p` of `x` against column `q` of `w`, plus the bias, clamped below at zero. -/
def inputAt (x : Nx256.Idx → EReal) (w : W256x128.Idx → EReal) (b : Fin 128 → EReal) (p : Fin 50000) (q : Fin 128) : EReal :=
  max ((∑ k : Fin 256, x (ix2 p k) * w (ix2 k q)) + b q) 0

/-- The input layer `relu (x · w + b)`. -/
def inputLayer (x : Nx256.Idx → EReal) (w : W256x128.Idx → EReal) (b : Fin 128 → EReal) : Nx128.Idx → EReal :=
  fun i => inputAt x w b (i 0) (i 1)

/-- One entry of a convolution: the neighbour mean against `wl`, the node's own features against `wr`, the two
    products added first and the bias last, clamped below at zero. -/
def convAt (a h : Nx128.Idx → EReal) (wl wr : W128x128.Idx → EReal) (b : Fin 128 → EReal) (p : Fin 50000) (q : Fin 128) : EReal :=
  max (((∑ k : Fin 128, a (ix2 p k) * wl (ix2 k q)) + (∑ k : Fin 128, h (ix2 p k) * wr (ix2 k q))) + b q) 0

/-- A convolution `relu (a · wl + h · wr + b)`. -/
def convLayer (a h : Nx128.Idx → EReal) (wl wr : W128x128.Idx → EReal) (b : Fin 128 → EReal) : Nx128.Idx → EReal :=
  fun i => convAt a h wl wr b (i 0) (i 1)

/-- One entry of the output layer. -/
def outputAt (h : Nx128.Idx → EReal) (w : W128x64.Idx → EReal) (b : Fin 64 → EReal) (p : Fin 50000) (q : Fin 64) : EReal :=
  (∑ k : Fin 128, h (ix2 p k) * w (ix2 k q)) + b q

/-- The output layer `h · w + b`. -/
def outputLayer (h : Nx128.Idx → EReal) (w : W128x64.Idx → EReal) (b : Fin 64 → EReal) : Nx64.Idx → EReal :=
  fun i => outputAt h w b (i 0) (i 1)

/-- The bias of a convolution may be added between the two products instead of after them:
    `(s + b) + t = (s + t) + b` on the extended reals, with no condition on the summands. -/
theorem convAt_comm (s t b : EReal) : max ((s + b) + t) 0 = max ((s + t) + b) 0 := by
  rw [add_right_comm]

end Cert.MeanConv

end
-- ==== Proof.KernelBody.lean ====
/-
  The three kernel bodies read at one entry of their output block.

  A body loads whole blocks, multiplies a block of rows by a whole weight matrix into a zero accumulator, adds a
  bias row broadcast down the block, and (for the first four) clamps below at zero. On the extended reals a
  change of float format is the identity and the product into zero is the plain row-by-column sum, so entry
  `(p, q)` of a body's result depends on row `p` of the row block(s), column `q` of the weights, and entry `q`
  of the bias row — the formulas of the specification with the block's row in place of the node.
-/
import proofs.«145428_j53197464928927_2_alg».proof.Proof.Gen.KernelIdeal.Skeleton
import proofs.«145428_j53197464928927_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-- A contraction over one axis of extent `n`, re-indexed by `Fin n`: if the two operand indices at output index
    `j` and contraction position `k` are `L k` and `R k`, the sum over the contraction's own index type is the sum
    over `k` of the left operand at `L k` times the right at `R k`. -/
theorem sum_contr {sl sr so : Shape} (D : DotDims sl sr so) (n : Nat) (hr : D.contr.rank = 1)
    (hs : D.contr.size ⟨0, by omega⟩ = n) (j : so.Idx) (l : sl.Idx → EReal) (r : sr.Idx → EReal)
    (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hl k, hr' k]

/-! ### The 5000×256 by 256×128 product of one row block -/

theorem prodIn_l0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem prodIn_l1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem prodIn_r0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem prodIn_r1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into a zero accumulator, read at row `p` and column `q`: the sum over the shared axis of the left
    operand's row `p` against the right operand's column `q`. -/
theorem prodIn_at {φ₁ φ₂ : FTy} (l : FVec Ideal S5000x256 φ₁) (r : FVec Ideal S256x128 φ₂) (p : Fin 5000) (q : Fin 128) :
    matmul dot_S5000x256_S256x128_S5000x128_1_0_0_1_n_n none l r (constant S5000x128 .f32 0x00000000#32) (ix2 p q) = ∑ k : Fin 256, l (ix2 p k) * r (ix2 k q) := by
  refine (Ideal.matmul_constant_zero_apply dot_S5000x256_S256x128_S5000x128_1_0_0_1_n_n none l r (ix2 p q)).trans ?_
  refine sum_contr dot_S5000x256_S256x128_S5000x128_1_0_0_1_n_n 256 rfl rfl (ix2 p q) l r (fun k => ix2 p k) (fun k => ix2 k q) (fun k => ?_) (fun k => ?_)
  · have hk := contrEquiv1_symm_val dot_S5000x256_S256x128_S5000x128_1_0_0_1_n_n 256 rfl rfl k
    exact funext fun a => Fin.ext (by
      match a with
      | ⟨0, _⟩ => exact prodIn_l0 _ _
      | ⟨1, _⟩ => exact (prodIn_l1 _ _).trans hk)
  · have hk := contrEquiv1_symm_val dot_S5000x256_S256x128_S5000x128_1_0_0_1_n_n 256 rfl rfl k
    exact funext fun a => Fin.ext (by
      match a with
      | ⟨0, _⟩ => exact (prodIn_r0 _ _).trans hk
      | ⟨1, _⟩ => exact prodIn_r1 _ _)

/-! ### The 5000×128 by 128×128 product of one row block -/

theorem prodConv_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem prodConv_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem prodConv_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem prodConv_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `p` and column `q`: the sum over the shared axis of the left
    operand's row `p` against the right operand's column `q`. -/
theorem prodConv_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q) = ∑ k : Fin 128, l (ix2 p k) * r (ix2 k q) := by
  refine (Ideal.matmul_constant_zero_apply dot_S5000x128_S128x128_S5000x128_1_0_0_1_n_n none l r (ix2 p q)).trans ?_
  refine sum_contr dot_S5000x128_S128x128_S5000x128_1_0_0_1_n_n 128 rfl rfl (ix2 p q) l r (fun k => ix2 p k) (fun k => ix2 k q) (fun k => ?_) (fun k => ?_)
  · have hk := contrEquiv1_symm_val dot_S5000x128_S128x128_S5000x128_1_0_0_1_n_n 128 rfl rfl k
    exact funext fun a => Fin.ext (by
      match a with
      | ⟨0, _⟩ => exact prodConv_l0 _ _
      | ⟨1, _⟩ => exact (prodConv_l1 _ _).trans hk)
  · have hk := contrEquiv1_symm_val dot_S5000x128_S128x128_S5000x128_1_0_0_1_n_n 128 rfl rfl k
    exact funext fun a => Fin.ext (by
      match a with
      | ⟨0, _⟩ => exact (prodConv_r0 _ _).trans hk
      | ⟨1, _⟩ => exact prodConv_r1 _ _)

/-! ### The 5000×128 by 128×64 product of one row block -/

theorem prodOut_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem prodOut_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem prodOut_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem prodOut_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, read at row `p` and column `q`: the sum over the shared axis of the left
    operand's row `p` against the right operand's column `q`. -/
theorem prodOut_at {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q) = ∑ k : Fin 128, l (ix2 p k) * r (ix2 k q) := by
  refine (Ideal.matmul_constant_zero_apply dot_S5000x128_S128x64_S5000x64_1_0_0_1_n_n none l r (ix2 p q)).trans ?_
  refine sum_contr dot_S5000x128_S128x64_S5000x64_1_0_0_1_n_n 128 rfl rfl (ix2 p q) l r (fun k => ix2 p k) (fun k => ix2 k q) (fun k => ?_) (fun k => ?_)
  · have hk := contrEquiv1_symm_val dot_S5000x128_S128x64_S5000x64_1_0_0_1_n_n 128 rfl rfl k
    exact funext fun a => Fin.ext (by
      match a with
      | ⟨0, _⟩ => exact prodOut_l0 _ _
      | ⟨1, _⟩ => exact (prodOut_l1 _ _).trans hk)
  · have hk := contrEquiv1_symm_val dot_S5000x128_S128x64_S5000x64_1_0_0_1_n_n 128 rfl rfl k
    exact funext fun a => Fin.ext (by
      match a with
      | ⟨0, _⟩ => exact (prodOut_r0 _ _).trans hk
      | ⟨1, _⟩ => exact prodOut_r1 _ _)

/-! ## The bodies -/

/-- The input layer's body at entry `(p, q)` of its block. -/
theorem inputBody_at (x : Vec Ideal S5000x256 .f32) (w : Vec Ideal S256x128 .f32) (b : Vec Ideal S1x128 .f32)
    (p : Fin 5000) (q : Fin 128) :
    k0_pay1 (F := Ideal) x w b (ix2 p q)
      = max ((∑ k : Fin 256, x (ix2 p k) * w (ix2 k q)) + b (ix2 (0 : Fin 1) q)) 0 := by
  unfold k0_pay1
  rw [maximumf_apply, addf_apply, broadcast_apply, prodIn_at, broadcastTo_1b_ab_apply, shapeCast_self]
  rw [show (Scalar.ofBits .f32 0x00000000#32 : Ideal .f32) = 0 from Ideal.ofBits_zero_f32]
  rfl

/-- A convolution's body at entry `(p, q)` of its block: the two products are added first, the bias last. -/
theorem convBody_at (a h : Vec Ideal S5000x128 .f32) (wl wr : Vec Ideal S128x128 .f32) (b : Vec Ideal S1x128 .f32)
    (p : Fin 5000) (q : Fin 128) :
    k1_pay1 (F := Ideal) a h wl wr b (ix2 p q)
      = max (((∑ k : Fin 128, a (ix2 p k) * wl (ix2 k q)) + (∑ k : Fin 128, h (ix2 p k) * wr (ix2 k q)))
              + b (ix2 (0 : Fin 1) q)) 0 := by
  unfold k1_pay1
  rw [maximumf_apply, addf_apply, addf_apply, broadcast_apply, prodConv_at, prodConv_at, broadcastTo_1b_ab_apply]
  simp only [shapeCast_self]
  rw [show (Scalar.ofBits .f32 0x00000000#32 : Ideal .f32) = 0 from Ideal.ofBits_zero_f32]
  rfl

/-- The three convolutions run one body. -/
theorem conv2_eq : @k2_pay1 Ideal _ = @k1_pay1 Ideal _ := rfl
theorem conv3_eq : @k3_pay1 Ideal _ = @k1_pay1 Ideal _ := rfl

/-- The output layer's body at entry `(p, q)` of its block. -/
theorem outputBody_at (h : Vec Ideal S5000x128 .f32) (w : Vec Ideal S128x64 .f32) (b : Vec Ideal S1x64 .f32)
    (p : Fin 5000) (q : Fin 64) :
    k4_pay1 (F := Ideal) h w b (ix2 p q)
      = (∑ k : Fin 128, h (ix2 p k) * w (ix2 k q)) + b (ix2 (0 : Fin 1) q) := by
  unfold k4_pay1
  rw [addf_apply, prodOut_at, broadcastTo_1b_ab_apply]
  simp only [shapeCast_self]
  rfl

end Cert.KernelIdeal.Body

end
-- ==== Proof.KernelInput.lean ====
/-
  The input layer's launch, as one whole-array function of the arrays it finds.

  The launch runs over ten blocks of 5000 nodes. At block `t` it stages rows `5000·t … 5000·t + 4999` of the node
  features, the whole weight matrix and the whole bias row, and writes rows `5000·t …` of the result. Entry
  `(p, q)` of block `t` is therefore the input layer at node `5000·t + p`, and since the ten row blocks tile the
  50000 nodes, the result array ends holding the input layer of the arrays the launch found.
-/
import proofs.«145428_j53197464928927_2_alg».proof.Proof.Gen.KernelIdeal.Frame
import proofs.«145428_j53197464928927_2_alg».proof.Proof.KernelBody
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)
open scoped BigOperators

namespace Cert.KernelIdeal.Region

open Cert.KernelIdeal Cert.KernelIdeal.Gen Cert.KernelIdeal.Body Cert.MeanConv

variable (V : (c : Dev nD) → (b : Ref sig .tc) → Buf (Elt Ideal) ((c : Thread nD τ).loc b))

theorem origin2 : (![0, 0] : Fin 2 → Nat) = fun _ => 0 := funext fun a => by fin_cases a <;> rfl

/-- Node `5000·t + p`: row `p` of row block `t`. -/
def node (t : Fin 10) (p : Fin 5000) : Fin 50000 := ⟨t.val * 5000 + p.val, by have := t.isLt; have := p.isLt; omega⟩

/-- The windows' block indices at point `t`, decided over the ten points: the row windows are at block row `t`,
    the weights and the bias row at their one block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the staged feature block is node `5000·t + p`'s row of the feature array. -/
theorem rowRead0 (c : Dev nD) (t : Fin cfg0.N) (p : Fin 5000) (k : Fin 256) :
    iblk0 V c 0 t (ix2 p k) = V c main_arg0 (ix2 (node t p) k) := by
  obtain ⟨e0, e1, -⟩ := blocks0 t
  show V c main_arg0 (((cfg0.win 0).blk t).view.emb (ix2 p k)) = V c main_arg0 (ix2 (node t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

/-- The staged weights are the whole weight array. -/
theorem weightRead0 (c : Dev nD) (t : Fin cfg0.N) (k : Fin 256) (q : Fin 128) :
    iblk0 V c 1 t (ix2 k q) = V c main_arg2 (ix2 k q) := by
  obtain ⟨-, -, e2, e3, -⟩ := blocks0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- The staged bias row is the whole bias row. -/
theorem biasRead0 (c : Dev nD) (t : Fin cfg0.N) (q : Fin 128) :
    iblk0 V c 2 t (ix2 (0 : Fin 1) q) = V c main_v11 (ix2 (0 : Fin 1) q) := by
  obtain ⟨-, -, -, -, e4, e5, -⟩ := blocks0 t
  show V c main_v11 (((cfg0.win 2).blk t).view.emb (ix2 (0 : Fin 1) q)) = V c main_v11 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Entry `(p, q)` of the result block at point `t` sits at node `5000·t + p`, column `q`, of the result array. -/
theorem outAt0 (t : Fin cfg0.N) (p : Fin 5000) (q : Fin 128) :
    ((cfg0.win 3).blk t).view.emb (ix2 p q) = ix2 (node t p) q := by
  obtain ⟨-, -, -, -, -, -, e6, e7⟩ := blocks0 t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point `t` writes back is block `t` of the input layer of the arrays the launch found. -/
theorem flushed0 (c : Dev nD) (t : Fin cfg0.N) :
    (dat0 V c).flushed 3 t = ((cfg0.win 3).blk t).view.read (Elt Ideal)
      (inputLayer (V c main_arg0) (V c main_arg2) (fun q => V c main_v11 (ix2 (0 : Fin 1) q))) := by
  show (cfg0.win 3).cut (grid0.coords t) ((dat0 V c).after 3 t) = _
  rw [after0_3]
  unfold out0_3
  rw [View.canon_unit_zero origin2]
  simp only [View.ld_unit_zero (S := S5000x256) origin2, View.ld_unit_zero (S := S256x128) origin2,
    View.ld_unit_zero (S := S1x128) origin2]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = inputLayer (V c main_arg0) (V c main_arg2) (fun q => V c main_v11 (ix2 (0 : Fin 1) q))
        (((cfg0.win 3).blk t).view.emb (ix2 p q))
  refine (inputBody_at (iblk0 V c 0 t) (iblk0 V c 1 t) (iblk0 V c 2 t) p q).trans ?_
  rw [outAt0 t p q, biasRead0 V c t q]
  simp only [rowRead0 V c t p, weightRead0 V c t]
  rfl

/-- An index of the result array is in point `t`'s block iff each coordinate is in the block's range. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12).slice (win0_3.rect t)).set ↔ _
  rw [View.set_slice_whole, Rect.mem_set_unit]
  exact Iff.rfl

/-- Every node's row lies in the block of the point `node / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e6, e7⟩ := blocks0 t
  have ht : t.val = (i 0).val / 5000 := rfl
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the launch: the input layer of the feature array, the weights and the bias row as the
    launch found them. -/
theorem result0 (c : Dev nD) :
    (dat0 V c).arrAt 3 cfg0.N
      = inputLayer (V c main_arg0) (V c main_arg2) (fun q => V c main_v11 (ix2 (0 : Fin 1) q)) :=
  (dat0 V c).arrAt_eq_of_cover 3 _ (fun t _ => flushed0 V c t) cover0

end Cert.KernelIdeal.Region

end
-- ==== Proof.KernelOutput.lean ====
/-
  The output layer's launch, as one whole-array function of the arrays it finds.

  Ten blocks of 5000 nodes again: block `t` stages rows `5000·t …` of the node features, the whole 128×64 weight
  matrix and the 64-entry bias row, and writes rows `5000·t …` of the result; no clamp. The result array ends
  holding the output layer of the arrays the launch found.
-/
import proofs.«145428_j53197464928927_2_alg».proof.Proof.Gen.KernelIdeal.Frame
import proofs.«145428_j53197464928927_2_alg».proof.Proof.KernelBody
import proofs.«145428_j53197464928927_2_alg».proof.Proof.KernelInput
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)
open scoped BigOperators

namespace Cert.KernelIdeal.Region

open Cert.KernelIdeal Cert.KernelIdeal.Gen Cert.KernelIdeal.Body Cert.MeanConv

variable (V : (c : Dev nD) → (b : Ref sig .tc) → Buf (Elt Ideal) ((c : Thread nD τ).loc b))

theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem rowRead4 (c : Dev nD) (t : Fin cfg4.N) (p : Fin 5000) (k : Fin 128) :
    iblk4 V c 0 t (ix2 p k) = V c main_v72 (ix2 (node t p) k) := by
  obtain ⟨e0, e1, -⟩ := blocks4 t
  show V c main_v72 (((cfg4.win 0).blk t).view.emb (ix2 p k)) = V c main_v72 (ix2 (node t p) k)
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

theorem weightRead4 (c : Dev nD) (t : Fin cfg4.N) (k : Fin 128) (q : Fin 64) :
    iblk4 V c 1 t (ix2 k q) = V c main_arg7 (ix2 k q) := by
  obtain ⟨-, -, e2, e3, -⟩ := blocks4 t
  show V c main_arg7 (((cfg4.win 1).blk t).view.emb (ix2 k q)) = V c main_arg7 (ix2 k q)
  refine congrArg _ (funext fun a => Fin.ext ?_)
  match a with
  | ⟨0, _⟩ => show win4_1.index t (0 : Fin 2) * 128 + 1 * k.val = k.val; omega
  | ⟨1, _⟩ => show win4_1.index t (1 : Fin 2) * 64 + 1 * q.val = q.val; omega

theorem biasRead4 (c : Dev nD) (t : Fin cfg4.N) (q : Fin 64) :
    iblk4 V c 2 t (ix2 (0 : Fin 1) q) = V c main_v73 (ix2 (0 : Fin 1) q) := by
  obtain ⟨-, -, -, -, e4, e5, -⟩ := blocks4 t
  show V c main_v73 (((cfg4.win 2).blk t).view.emb (ix2 (0 : Fin 1) q)) = V c main_v73 (ix2 (0 : Fin 1) q)
  refine congrArg _ (funext fun a => Fin.ext ?_)
  match a with
  | ⟨0, _⟩ => show win4_2.index t (0 : Fin 2) * 1 + 1 * 0 = 0; omega
  | ⟨1, _⟩ => show win4_2.index t (1 : Fin 2) * 64 + 1 * q.val = q.val; omega

theorem outAt4 (t : Fin cfg4.N) (p : Fin 5000) (q : Fin 64) :
    ((cfg4.win 3).blk t).view.emb (ix2 p q) = ix2 (node t p) q := by
  obtain ⟨-, -, -, -, -, -, e6, e7⟩ := blocks4 t
  refine funext fun a => Fin.ext ?_
  match a with
  | ⟨0, _⟩ => show win4_3.index t (0 : Fin 2) * 5000 + 1 * p.val = t.val * 5000 + p.val; omega
  | ⟨1, _⟩ => show win4_3.index t (1 : Fin 2) * 64 + 1 * q.val = q.val; omega

/-- What point `t` writes back is block `t` of the output layer of the arrays the launch found. -/
theorem flushed4 (c : Dev nD) (t : Fin cfg4.N) :
    (dat4 V c).flushed 3 t = ((cfg4.win 3).blk t).view.read (Elt Ideal)
      (outputLayer (V c main_v72) (V c main_arg7) (fun q => V c main_v73 (ix2 (0 : Fin 1) q))) := by
  show (cfg4.win 3).cut (grid4.coords t) ((dat4 V c).after 3 t) = _
  rw [after4_3]
  unfold out4_3
  rw [View.canon_unit_zero origin2]
  simp only [View.ld_unit_zero (S := S5000x128) origin2, View.ld_unit_zero (S := S128x64) origin2,
    View.ld_unit_zero (S := S1x64) origin2]
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (iblk4 V c 2 t) (ix2 p q)
    = outputLayer (V c main_v72) (V c main_arg7) (fun q => V c main_v73 (ix2 (0 : Fin 1) q))
        (((cfg4.win 3).blk t).view.emb (ix2 p q))
  refine (outputBody_at (iblk4 V c 0 t) (iblk4 V c 1 t) (iblk4 V c 2 t) p q).trans ?_
  rw [outAt4 t p q, biasRead4 V c t q]
  simp only [rowRead4 V c t p, weightRead4 V c t]
  rfl

theorem mem_block4 (t : Fin cfg4.N) (i : S50000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v74).slice (win4_3.rect t)).set ↔ _
  rw [View.set_slice_whole, Rect.mem_set_unit]
  exact Iff.rfl

theorem cover4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨-, -, -, -, -, -, e6, e7⟩ := blocks4 t
  have ht : t.val = (i 0).val / 5000 := rfl
  refine ⟨t, flush4_3 t, ?_⟩
  rw [mem_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The result array after the last launch: the output layer of the arrays the launch found. -/
theorem result4 (c : Dev nD) :
    (dat4 V c).arrAt 3 cfg4.N
      = outputLayer (V c main_v72) (V c main_arg7) (fun q => V c main_v73 (ix2 (0 : Fin 1) q)) :=
  (dat4 V c).arrAt_eq_of_cover 3 _ (fun t _ => flushed4 V c t) cover4

end Cert.KernelIdeal.Region

end
-- ==== Proof.RefStages.lean ====
/-
  The reference, stage by stage, is the specification's layers.

  The reference computes each dense stage on whole arrays: a product over the feature axis, the bias broadcast over
  the nodes, and a clamp at zero. Read at entry `(p, q)` its products are the row-by-column sums and its bias is
  the bias vector at `q`, so each stage is the corresponding layer of the specification applied to the stage's
  operands. In a convolution the reference adds the bias between the two products; `convAt_comm` moves it last.
-/
import proofs.«145428_j53197464928927_2_alg».proof.Proof.Gen.ReferenceIdeal.Read
import proofs.«145428_j53197464928927_2_alg».proof.Proof.Spec
import Idealize.ShloMosaic.Lib.ValueIdx
import Idealize.ShloMosaic.PureOps.Ideal.Laws

noncomputable section

open Idealize.ShloMosaic Idealize.ShloMosaic.ValueIdx
open scoped BigOperators

namespace Cert.ReferenceIdeal.Stage

open Cert.ReferenceIdeal Cert.ReferenceIdeal.Read Cert.MeanConv

/-- The reference's input stage is the input layer of the features, the weights and the bias vector. -/
theorem input_eq (x0 : (⟨S50000x256, .f32⟩ : BufTy).Contents (Elt Ideal)) (x2 : (⟨S256x128, .f32⟩ : BufTy).Contents (Elt Ideal)) (x3 : (⟨S128, .f32⟩ : BufTy).Contents (Elt Ideal)) :
    val_main_v15 (F := Ideal) x0 x2 x3 = inputLayer x0 x2 (fun q => x3 (ix1 q)) := by
  funext i
  obtain ⟨p, q, rfl⟩ : ∃ (p : Fin 50000) (q : Fin 128), i = ix2 p q := ⟨i 0, i 1, eq_ix2 i⟩
  rw [val_main_v15_apply, val_main_v14_apply, val_main_v11_apply, val_main_v13_apply, val_main_v12_apply,
    val_main_call0_v0_apply, val_main_call0_cst_apply]
  have el : ∀ k, lidx_main_v11 (ix2 p q) k = ix2 p k := fun k => funext fun a => Fin.ext (by
    match a with | ⟨0, _⟩ => rfl | ⟨1, _⟩ => rfl)
  have er : ∀ k, ridx_main_v11 (ix2 p q) k = ix2 k q := fun k => funext fun a => Fin.ext (by
    match a with | ⟨0, _⟩ => rfl | ⟨1, _⟩ => rfl)
  have eb : idx_main_v12 (idx_main_v13 (ix2 p q)) = ix1 q := funext fun a => Fin.ext (by
    match a with | ⟨0, _⟩ => rfl)
  simp only [el, er, eb, Ideal.maximumf_def, Ideal.addf_def, Ideal.ofBits_def, Ideal.ofBits_zero_f32]
  rfl

/-- Convolution 1 of the reference: the bias is added after the first product, the second product after that;
    by `convAt_comm` this is the convolution with both products added first. -/
theorem conv1_eq (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal))
    (x4 : (⟨S3x128x128, .f32⟩ : BufTy).Contents (Elt Ideal)) (x5 : (⟨S3x128, .f32⟩ : BufTy).Contents (Elt Ideal)) (x6 : (⟨S3x128x128, .f32⟩ : BufTy).Contents (Elt Ideal)) :
    val_main_v40 (F := Ideal) x0 x1 x2 x3 x4 x5 x6
      = convLayer (val_main_v27 (F := Ideal) x0 x1 x2 x3) (val_main_v15 (F := Ideal) x0 x2 x3)
          (val_main_v29 (F := Ideal) x4) (val_main_v37 (F := Ideal) x6) (fun q => val_main_v32 (F := Ideal) x5 (ix1 q)) := by
  funext i
  obtain ⟨p, q, rfl⟩ : ∃ (p : Fin 50000) (q : Fin 128), i = ix2 p q := ⟨i 0, i 1, eq_ix2 i⟩
  rw [val_main_v40_apply, val_main_v39_apply, val_main_v35_apply, val_main_v30_apply, val_main_v38_apply, val_main_v34_apply, val_main_v33_apply,
    val_main_call1_v0_apply, val_main_call1_cst_apply]
  have el : ∀ k, lidx_main_v30 (ix2 p q) k = ix2 p k := fun k => funext fun a => Fin.ext (by
    match a with | ⟨0, _⟩ => rfl | ⟨1, _⟩ => rfl)
  have er : ∀ k, ridx_main_v30 (ix2 p q) k = ix2 k q := fun k => funext fun a => Fin.ext (by
    match a with | ⟨0, _⟩ => rfl | ⟨1, _⟩ => rfl)
  have el' : ∀ k, lidx_main_v38 (ix2 p q) k = ix2 p k := fun k => funext fun a => Fin.ext (by
    match a with | ⟨0, _⟩ => rfl | ⟨1, _⟩ => rfl)
  have er' : ∀ k, ridx_main_v38 (ix2 p q) k = ix2 k q := fun k => funext fun a => Fin.ext (by
    match a with | ⟨0, _⟩ => rfl | ⟨1, _⟩ => rfl)
  have eb : idx_main_v33 (idx_main_v34 (ix2 p q)) = ix1 q := funext fun a => Fin.ext (by
    match a with | ⟨0, _⟩ => rfl)
  simp only [el, er, el', er', eb, Ideal.maximumf_def, Ideal.addf_def, Ideal.ofBits_def, Ideal.ofBits_zero_f32]
  exact convAt_comm _ _ _

/-- Convolution 2 of the reference: the bias is added after the first product, the second product after that;
    by `convAt_comm` this is the convolution with both products added first. -/
theorem conv2_eq (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal))
    (x4 : (⟨S3x128x128, .f32⟩ : BufTy).Contents (Elt Ideal)) (x5 : (⟨S3x128, .f32⟩ : BufTy).Contents (Elt Ideal)) (x6 : (⟨S3x128x128, .f32⟩ : BufTy).Contents (Elt Ideal)) :
    val_main_v65 (F := Ideal) x0 x1 x2 x3 x4 x5 x6
      = convLayer (val_main_v52 (F := Ideal) x0 x1 x2 x3 x4 x5 x6) (val_main_v40 (F := Ideal) x0 x1 x2 x3 x4 x5 x6)
          (val_main_v54 (F := Ideal) x4) (val_main_v62 (F := Ideal) x6) (fun q => val_main_v57 (F := Ideal) x5 (ix1 q)) := by
  funext i
  obtain ⟨p, q, rfl⟩ : ∃ (p : Fin 50000) (q : Fin 128), i = ix2 p q := ⟨i 0, i 1, eq_ix2 i⟩
  rw [val_main_v65_apply, val_main_v64_apply, val_main_v60_apply, val_main_v55_apply, val_main_v63_apply, val_main_v59_apply, val_main_v58_apply,
    val_main_call2_v0_apply, val_main_call2_cst_apply]
  have el : ∀ k, lidx_main_v55 (ix2 p q) k = ix2 p k := fun k => funext fun a => Fin.ext (by
    match a with | ⟨0, _⟩ => rfl | ⟨1, _⟩ => rfl)
  have er : ∀ k, ridx_main_v55 (ix2 p q) k = ix2 k q := fun k => funext fun a => Fin.ext (by
    match a with | ⟨0, _⟩ => rfl | ⟨1, _⟩ => rfl)
  have el' : ∀ k, lidx_main_v63 (ix2 p q) k = ix2 p k := fun k => funext fun a => Fin.ext (by
    match a with | ⟨0, _⟩ => rfl | ⟨1, _⟩ => rfl)
  have er' : ∀ k, ridx_main_v63 (ix2 p q) k = ix2 k q := fun k => funext fun a => Fin.ext (by
    match a with | ⟨0, _⟩ => rfl | ⟨1, _⟩ => rfl)
  have eb : idx_main_v58 (idx_main_v59 (ix2 p q)) = ix1 q := funext fun a => Fin.ext (by
    match a with | ⟨0, _⟩ => rfl)
  simp only [el, er, el', er', eb, Ideal.maximumf_def, Ideal.addf_def, Ideal.ofBits_def, Ideal.ofBits_zero_f32]
  exact convAt_comm _ _ _

/-- Convolution 3 of the reference: the bias is added after the first product, the second product after that;
    by `convAt_comm` this is the convolution with both products added first. -/
theorem conv3_eq (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal))
    (x4 : (⟨S3x128x128, .f32⟩ : BufTy).Contents (Elt Ideal)) (x5 : (⟨S3x128, .f32⟩ : BufTy).Contents (Elt Ideal)) (x6 : (⟨S3x128x128, .f32⟩ : BufTy).Contents (Elt Ideal)) :
    val_main_v90 (F := Ideal) x0 x1 x2 x3 x4 x5 x6
      = convLayer (val_main_v77 (F := Ideal) x0 x1 x2 x3 x4 x5 x6) (val_main_v65 (F := Ideal) x0 x1 x2 x3 x4 x5 x6)
          (val_main_v79 (F := Ideal) x4) (val_main_v87 (F := Ideal) x6) (fun q => val_main_v82 (F := Ideal) x5 (ix1 q)) := by
  funext i
  obtain ⟨p, q, rfl⟩ : ∃ (p : Fin 50000) (q : Fin 128), i = ix2 p q := ⟨i 0, i 1, eq_ix2 i⟩
  rw [val_main_v90_apply, val_main_v89_apply, val_main_v85_apply, val_main_v80_apply, val_main_v88_apply, val_main_v84_apply, val_main_v83_apply,
    val_main_call3_v0_apply, val_main_call3_cst_apply]
  have el : ∀ k, lidx_main_v80 (ix2 p q) k = ix2 p k := fun k => funext fun a => Fin.ext (by
    match a with | ⟨0, _⟩ => rfl | ⟨1, _⟩ => rfl)
  have er : ∀ k, ridx_main_v80 (ix2 p q) k = ix2 k q := fun k => funext fun a => Fin.ext (by
    match a with | ⟨0, _⟩ => rfl | ⟨1, _⟩ => rfl)
  have el' : ∀ k, lidx_main_v88 (ix2 p q) k = ix2 p k := fun k => funext fun a => Fin.ext (by
    match a with | ⟨0, _⟩ => rfl | ⟨1, _⟩ => rfl)
  have er' : ∀ k, ridx_main_v88 (ix2 p q) k = ix2 k q := fun k => funext fun a => Fin.ext (by
    match a with | ⟨0, _⟩ => rfl | ⟨1, _⟩ => rfl)
  have eb : idx_main_v83 (idx_main_v84 (ix2 p q)) = ix1 q := funext fun a => Fin.ext (by
    match a with | ⟨0, _⟩ => rfl)
  simp only [el, er, el', er', eb, Ideal.maximumf_def, Ideal.addf_def, Ideal.ofBits_def, Ideal.ofBits_zero_f32]
  exact convAt_comm _ _ _

/-- The reference's output stage is the output layer of the last features, the weights and the bias vector. -/
theorem output_eq (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal))
    (x4 : (⟨S3x128x128, .f32⟩ : BufTy).Contents (Elt Ideal)) (x5 : (⟨S3x128, .f32⟩ : BufTy).Contents (Elt Ideal)) (x6 : (⟨S3x128x128, .f32⟩ : BufTy).Contents (Elt Ideal))
    (x7 : (⟨S128x64, .f32⟩ : BufTy).Contents (Elt Ideal)) (x8 : (⟨S64, .f32⟩ : BufTy).Contents (Elt Ideal)) :
    val_main_v94 (F := Ideal) x0 x1 x2 x3 x4 x5 x6 x7 x8
      = outputLayer (val_main_v90 (F := Ideal) x0 x1 x2 x3 x4 x5 x6) x7 (fun q => x8 (ix1 q)) := by
  funext i
  obtain ⟨p, q, rfl⟩ : ∃ (p : Fin 50000) (q : Fin 64), i = ix2 p q := ⟨i 0, i 1, eq_ix2 i⟩
  rw [val_main_v94_apply, val_main_v91_apply, val_main_v93_apply, val_main_v92_apply]
  have el : ∀ k, lidx_main_v91 (ix2 p q) k = ix2 p k := fun k => funext fun a => Fin.ext (by
    match a with | ⟨0, _⟩ => rfl | ⟨1, _⟩ => rfl)
  have er : ∀ k, ridx_main_v91 (ix2 p q) k = ix2 k q := fun k => funext fun a => Fin.ext (by
    match a with | ⟨0, _⟩ => rfl | ⟨1, _⟩ => rfl)
  have eb : idx_main_v92 (idx_main_v93 (ix2 p q)) = ix1 q := funext fun a => Fin.ext (by
    match a with | ⟨0, _⟩ => rfl)
  simp only [el, er, eb, Ideal.addf_def]
  rfl

end Cert.ReferenceIdeal.Stage

end
-- ==== Proof.KernelConv3.lean ====
/-
  A convolution's launch, as one whole-array function of the arrays it finds.

  As for the input layer, the launch runs over ten blocks of 5000 nodes; at block `t` it stages rows `5000·t …` of
  the neighbour means and of the node features, both weight matrices whole and the bias row, and writes rows
  `5000·t …` of the result. The ten row blocks tile the 50000 nodes, so the result array ends holding the
  convolution of the five arrays the launch found. The three convolutions run one body on different arrays.
-/
import proofs.«145428_j53197464928927_2_alg».proof.Proof.Gen.KernelIdeal.Frame
import proofs.«145428_j53197464928927_2_alg».proof.Proof.KernelBody
import proofs.«145428_j53197464928927_2_alg».proof.Proof.KernelInput
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)
open scoped BigOperators

namespace Cert.KernelIdeal.Region

open Cert.KernelIdeal Cert.KernelIdeal.Gen Cert.KernelIdeal.Body Cert.MeanConv

variable (V : (c : Dev nD) → (b : Ref sig .tc) → Buf (Elt Ideal) ((c : Thread nD τ).loc b))

/-! ## Launch 3: the convolution reading `main_v64` (neighbour means) and `main_v52` (node features) -/

/-- The windows' block indices at point `t`: the two row windows and the result at block row `t`, the two weight
    matrices and the bias row at their one block. -/
theorem blocks3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem meanRead3 (c : Dev nD) (t : Fin cfg3.N) (p : Fin 5000) (k : Fin 128) :
    iblk3 V c 0 t (ix2 p k) = V c main_v64 (ix2 (node t p) k) := by
  obtain ⟨e0, e1, -⟩ := blocks3 t
  show V c main_v64 (((cfg3.win 0).blk t).view.emb (ix2 p k)) = V c main_v64 (ix2 (node t p) k)
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

theorem selfRead3 (c : Dev nD) (t : Fin cfg3.N) (p : Fin 5000) (k : Fin 128) :
    iblk3 V c 1 t (ix2 p k) = V c main_v52 (ix2 (node t p) k) := by
  obtain ⟨-, -, e2, e3, -⟩ := blocks3 t
  show V c main_v52 (((cfg3.win 1).blk t).view.emb (ix2 p k)) = V c main_v52 (ix2 (node t p) k)
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * k.val = k.val; omega

theorem wlRead3 (c : Dev nD) (t : Fin cfg3.N) (k : Fin 128) (q : Fin 128) :
    iblk3 V c 2 t (ix2 k q) = V c main_v66 (ix2 k q) := by
  obtain ⟨-, -, -, -, e4, e5, -⟩ := blocks3 t
  show V c main_v66 (((cfg3.win 2).blk t).view.emb (ix2 k q)) = V c main_v66 (ix2 k q)
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

theorem wrRead3 (c : Dev nD) (t : Fin cfg3.N) (k : Fin 128) (q : Fin 128) :
    iblk3 V c 3 t (ix2 k q) = V c main_v68 (ix2 k q) := by
  obtain ⟨-, -, -, -, -, -, e6, e7, -⟩ := blocks3 t
  show V c main_v68 (((cfg3.win 3).blk t).view.emb (ix2 k q)) = V c main_v68 (ix2 k q)
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

theorem biasRead3 (c : Dev nD) (t : Fin cfg3.N) (q : Fin 128) :
    iblk3 V c 4 t (ix2 (0 : Fin 1) q) = V c main_v71 (ix2 (0 : Fin 1) q) := by
  obtain ⟨-, -, -, -, -, -, -, -, e8, e9, -⟩ := blocks3 t
  show V c main_v71 (((cfg3.win 4).blk t).view.emb (ix2 (0 : Fin 1) q)) = V c main_v71 (ix2 (0 : Fin 1) q)
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

theorem outAt3 (t : Fin cfg3.N) (p : Fin 5000) (q : Fin 128) :
    ((cfg3.win 5).blk t).view.emb (ix2 p q) = ix2 (node t p) q := by
  obtain ⟨-, -, -, -, -, -, -, -, -, -, e10, e11⟩ := blocks3 t
  refine funext fun a => Fin.ext ?_
  match a with
  | ⟨0, _⟩ => show win3_5.index t (0 : Fin 2) * 5000 + 1 * p.val = t.val * 5000 + p.val; omega
  | ⟨1, _⟩ => show win3_5.index t (1 : Fin 2) * 128 + 1 * q.val = q.val; omega

/-- What point `t` writes back is block `t` of the convolution of the arrays the launch found. -/
theorem flushed3 (c : Dev nD) (t : Fin cfg3.N) :
    (dat3 V c).flushed 5 t = ((cfg3.win 5).blk t).view.read (Elt Ideal)
      (convLayer (V c main_v64) (V c main_v52) (V c main_v66) (V c main_v68) (fun q => V c main_v71 (ix2 (0 : Fin 1) q))) := by
  show (cfg3.win 5).cut (grid3.coords t) ((dat3 V c).after 5 t) = _
  rw [after3_5]
  unfold out3_5
  rw [View.canon_unit_zero origin2]
  simp only [View.ld_unit_zero (S := S5000x128) origin2, View.ld_unit_zero (S := S128x128) origin2,
    View.ld_unit_zero (S := S1x128) origin2]
  funext j
  obtain ⟨p, q, rfl⟩ : ∃ (p : Fin 5000) (q : Fin 128), j = ix2 p q := ⟨j 0, j 1, eq_ix2 j⟩
  show k1_pay1 (F := Ideal) (iblk3 V c 0 t) (iblk3 V c 1 t) (iblk3 V c 2 t) (iblk3 V c 3 t) (iblk3 V c 4 t) (ix2 p q)
    = convLayer (V c main_v64) (V c main_v52) (V c main_v66) (V c main_v68) (fun q => V c main_v71 (ix2 (0 : Fin 1) q))
        (((cfg3.win 5).blk t).view.emb (ix2 p q))
  refine (convBody_at (iblk3 V c 0 t) (iblk3 V c 1 t) (iblk3 V c 2 t) (iblk3 V c 3 t) (iblk3 V c 4 t) p q).trans ?_
  rw [outAt3 t p q, biasRead3 V c t q]
  simp only [meanRead3 V c t p, selfRead3 V c t p, wlRead3 V c t, wrRead3 V c t]
  rfl

theorem mem_block3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v72).slice (win3_5.rect t)).set ↔ _
  rw [View.set_slice_whole, Rect.mem_set_unit]
  exact Iff.rfl

theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, e10, e11⟩ := blocks3 t
  have ht : t.val = (i 0).val / 5000 := rfl
  refine ⟨t, flush3_5 t, ?_⟩
  rw [mem_block3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The result array after launch 3: the convolution of the five arrays the launch found. -/
theorem result3 (c : Dev nD) :
    (dat3 V c).arrAt 5 cfg3.N
      = convLayer (V c main_v64) (V c main_v52) (V c main_v66) (V c main_v68) (fun q => V c main_v71 (ix2 (0 : Fin 1) q)) :=
  (dat3 V c).arrAt_eq_of_cover 5 _ (fun t _ => flushed3 V c t) cover3

end Cert.KernelIdeal.Region

end
-- ==== Proof.KernelConv2.lean ====
/-
  A convolution's launch, as one whole-array function of the arrays it finds.

  As for the input layer, the launch runs over ten blocks of 5000 nodes; at block `t` it stages rows `5000·t …` of
  the neighbour means and of the node features, both weight matrices whole and the bias row, and writes rows
  `5000·t …` of the result. The ten row blocks tile the 50000 nodes, so the result array ends holding the
  convolution of the five arrays the launch found. The three convolutions run one body on different arrays.
-/
import proofs.«145428_j53197464928927_2_alg».proof.Proof.Gen.KernelIdeal.Frame
import proofs.«145428_j53197464928927_2_alg».proof.Proof.KernelBody
import proofs.«145428_j53197464928927_2_alg».proof.Proof.KernelInput
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)
open scoped BigOperators

namespace Cert.KernelIdeal.Region

open Cert.KernelIdeal Cert.KernelIdeal.Gen Cert.KernelIdeal.Body Cert.MeanConv

variable (V : (c : Dev nD) → (b : Ref sig .tc) → Buf (Elt Ideal) ((c : Thread nD τ).loc b))

/-! ## Launch 2: the convolution reading `main_v44` (neighbour means) and `main_v32` (node features) -/

/-- The windows' block indices at point `t`: the two row windows and the result at block row `t`, the two weight
    matrices and the bias row at their one block. -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem meanRead2 (c : Dev nD) (t : Fin cfg2.N) (p : Fin 5000) (k : Fin 128) :
    iblk2 V c 0 t (ix2 p k) = V c main_v44 (ix2 (node t p) k) := by
  obtain ⟨e0, e1, -⟩ := blocks2 t
  show V c main_v44 (((cfg2.win 0).blk t).view.emb (ix2 p k)) = V c main_v44 (ix2 (node t p) k)
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem selfRead2 (c : Dev nD) (t : Fin cfg2.N) (p : Fin 5000) (k : Fin 128) :
    iblk2 V c 1 t (ix2 p k) = V c main_v32 (ix2 (node t p) k) := by
  obtain ⟨-, -, e2, e3, -⟩ := blocks2 t
  show V c main_v32 (((cfg2.win 1).blk t).view.emb (ix2 p k)) = V c main_v32 (ix2 (node t p) k)
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

theorem wlRead2 (c : Dev nD) (t : Fin cfg2.N) (k : Fin 128) (q : Fin 128) :
    iblk2 V c 2 t (ix2 k q) = V c main_v46 (ix2 k q) := by
  obtain ⟨-, -, -, -, e4, e5, -⟩ := blocks2 t
  show V c main_v46 (((cfg2.win 2).blk t).view.emb (ix2 k q)) = V c main_v46 (ix2 k q)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem wrRead2 (c : Dev nD) (t : Fin cfg2.N) (k : Fin 128) (q : Fin 128) :
    iblk2 V c 3 t (ix2 k q) = V c main_v48 (ix2 k q) := by
  obtain ⟨-, -, -, -, -, -, e6, e7, -⟩ := blocks2 t
  show V c main_v48 (((cfg2.win 3).blk t).view.emb (ix2 k q)) = V c main_v48 (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem biasRead2 (c : Dev nD) (t : Fin cfg2.N) (q : Fin 128) :
    iblk2 V c 4 t (ix2 (0 : Fin 1) q) = V c main_v51 (ix2 (0 : Fin 1) q) := by
  obtain ⟨-, -, -, -, -, -, -, -, e8, e9, -⟩ := blocks2 t
  show V c main_v51 (((cfg2.win 4).blk t).view.emb (ix2 (0 : Fin 1) q)) = V c main_v51 (ix2 (0 : Fin 1) q)
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

theorem outAt2 (t : Fin cfg2.N) (p : Fin 5000) (q : Fin 128) :
    ((cfg2.win 5).blk t).view.emb (ix2 p q) = ix2 (node t p) q := by
  obtain ⟨-, -, -, -, -, -, -, -, -, -, e10, e11⟩ := blocks2 t
  refine funext fun a => Fin.ext ?_
  match a with
  | ⟨0, _⟩ => show win2_5.index t (0 : Fin 2) * 5000 + 1 * p.val = t.val * 5000 + p.val; omega
  | ⟨1, _⟩ => show win2_5.index t (1 : Fin 2) * 128 + 1 * q.val = q.val; omega

/-- What point `t` writes back is block `t` of the convolution of the arrays the launch found. -/
theorem flushed2 (c : Dev nD) (t : Fin cfg2.N) :
    (dat2 V c).flushed 5 t = ((cfg2.win 5).blk t).view.read (Elt Ideal)
      (convLayer (V c main_v44) (V c main_v32) (V c main_v46) (V c main_v48) (fun q => V c main_v51 (ix2 (0 : Fin 1) q))) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x128) origin2,
    View.ld_unit_zero (S := S1x128) origin2]
  funext j
  obtain ⟨p, q, rfl⟩ : ∃ (p : Fin 5000) (q : Fin 128), j = ix2 p q := ⟨j 0, j 1, eq_ix2 j⟩
  show k1_pay1 (F := Ideal) (iblk2 V c 0 t) (iblk2 V c 1 t) (iblk2 V c 2 t) (iblk2 V c 3 t) (iblk2 V c 4 t) (ix2 p q)
    = convLayer (V c main_v44) (V c main_v32) (V c main_v46) (V c main_v48) (fun q => V c main_v51 (ix2 (0 : Fin 1) q))
        (((cfg2.win 5).blk t).view.emb (ix2 p q))
  refine (convBody_at (iblk2 V c 0 t) (iblk2 V c 1 t) (iblk2 V c 2 t) (iblk2 V c 3 t) (iblk2 V c 4 t) p q).trans ?_
  rw [outAt2 t p q, biasRead2 V c t q]
  simp only [meanRead2 V c t p, selfRead2 V c t p, wlRead2 V c t, wrRead2 V c t]
  rfl

theorem mem_block2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v52).slice (win2_5.rect t)).set ↔ _
  rw [View.set_slice_whole, Rect.mem_set_unit]
  exact Iff.rfl

theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, e10, e11⟩ := blocks2 t
  have ht : t.val = (i 0).val / 5000 := rfl
  refine ⟨t, flush2_5 t, ?_⟩
  rw [mem_block2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The result array after launch 2: the convolution of the five arrays the launch found. -/
theorem result2 (c : Dev nD) :
    (dat2 V c).arrAt 5 cfg2.N
      = convLayer (V c main_v44) (V c main_v32) (V c main_v46) (V c main_v48) (fun q => V c main_v51 (ix2 (0 : Fin 1) q)) :=
  (dat2 V c).arrAt_eq_of_cover 5 _ (fun t _ => flushed2 V c t) cover2

end Cert.KernelIdeal.Region

end
-- ==== Proof.KernelConv1.lean ====
/-
  A convolution's launch, as one whole-array function of the arrays it finds.

  As for the input layer, the launch runs over ten blocks of 5000 nodes; at block `t` it stages rows `5000·t …` of
  the neighbour means and of the node features, both weight matrices whole and the bias row, and writes rows
  `5000·t …` of the result. The ten row blocks tile the 50000 nodes, so the result array ends holding the
  convolution of the five arrays the launch found. The three convolutions run one body on different arrays.
-/
import proofs.«145428_j53197464928927_2_alg».proof.Proof.Gen.KernelIdeal.Frame
import proofs.«145428_j53197464928927_2_alg».proof.Proof.KernelBody
import proofs.«145428_j53197464928927_2_alg».proof.Proof.KernelInput
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)
open scoped BigOperators

namespace Cert.KernelIdeal.Region

open Cert.KernelIdeal Cert.KernelIdeal.Gen Cert.KernelIdeal.Body Cert.MeanConv

variable (V : (c : Dev nD) → (b : Ref sig .tc) → Buf (Elt Ideal) ((c : Thread nD τ).loc b))

/-! ## Launch 1: the convolution reading `main_v24` (neighbour means) and `main_v12` (node features) -/

/-- The windows' block indices at point `t`: the two row windows and the result at block row `t`, the two weight
    matrices and the bias row at their one block. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem meanRead1 (c : Dev nD) (t : Fin cfg1.N) (p : Fin 5000) (k : Fin 128) :
    iblk1 V c 0 t (ix2 p k) = V c main_v24 (ix2 (node t p) k) := by
  obtain ⟨e0, e1, -⟩ := blocks1 t
  show V c main_v24 (((cfg1.win 0).blk t).view.emb (ix2 p k)) = V c main_v24 (ix2 (node t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem selfRead1 (c : Dev nD) (t : Fin cfg1.N) (p : Fin 5000) (k : Fin 128) :
    iblk1 V c 1 t (ix2 p k) = V c main_v12 (ix2 (node t p) k) := by
  obtain ⟨-, -, e2, e3, -⟩ := blocks1 t
  show V c main_v12 (((cfg1.win 1).blk t).view.emb (ix2 p k)) = V c main_v12 (ix2 (node t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem wlRead1 (c : Dev nD) (t : Fin cfg1.N) (k : Fin 128) (q : Fin 128) :
    iblk1 V c 2 t (ix2 k q) = V c main_v26 (ix2 k q) := by
  obtain ⟨-, -, -, -, e4, e5, -⟩ := blocks1 t
  show V c main_v26 (((cfg1.win 2).blk t).view.emb (ix2 k q)) = V c main_v26 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem wrRead1 (c : Dev nD) (t : Fin cfg1.N) (k : Fin 128) (q : Fin 128) :
    iblk1 V c 3 t (ix2 k q) = V c main_v28 (ix2 k q) := by
  obtain ⟨-, -, -, -, -, -, e6, e7, -⟩ := blocks1 t
  show V c main_v28 (((cfg1.win 3).blk t).view.emb (ix2 k q)) = V c main_v28 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem biasRead1 (c : Dev nD) (t : Fin cfg1.N) (q : Fin 128) :
    iblk1 V c 4 t (ix2 (0 : Fin 1) q) = V c main_v31 (ix2 (0 : Fin 1) q) := by
  obtain ⟨-, -, -, -, -, -, -, -, e8, e9, -⟩ := blocks1 t
  show V c main_v31 (((cfg1.win 4).blk t).view.emb (ix2 (0 : Fin 1) q)) = V c main_v31 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem outAt1 (t : Fin cfg1.N) (p : Fin 5000) (q : Fin 128) :
    ((cfg1.win 5).blk t).view.emb (ix2 p q) = ix2 (node t p) q := by
  obtain ⟨-, -, -, -, -, -, -, -, -, -, e10, e11⟩ := blocks1 t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point `t` writes back is block `t` of the convolution of the arrays the launch found. -/
theorem flushed1 (c : Dev nD) (t : Fin cfg1.N) :
    (dat1 V c).flushed 5 t = ((cfg1.win 5).blk t).view.read (Elt Ideal)
      (convLayer (V c main_v24) (V c main_v12) (V c main_v26) (V c main_v28) (fun q => V c main_v31 (ix2 (0 : Fin 1) q))) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x128) origin2,
    View.ld_unit_zero (S := S1x128) origin2]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = convLayer (V c main_v24) (V c main_v12) (V c main_v26) (V c main_v28) (fun q => V c main_v31 (ix2 (0 : Fin 1) q))
        (((cfg1.win 5).blk t).view.emb (ix2 p q))
  refine (convBody_at (iblk1 V c 0 t) (iblk1 V c 1 t) (iblk1 V c 2 t) (iblk1 V c 3 t) (iblk1 V c 4 t) p q).trans ?_
  rw [outAt1 t p q, biasRead1 V c t q]
  simp only [meanRead1 V c t p, selfRead1 V c t p, wlRead1 V c t, wrRead1 V c t]
  rfl

theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e10, e11⟩ := blocks1 t
  have ht : t.val = (i 0).val / 5000 := rfl
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after launch 1: the convolution of the five arrays the launch found. -/
theorem result1 (c : Dev nD) :
    (dat1 V c).arrAt 5 cfg1.N
      = convLayer (V c main_v24) (V c main_v12) (V c main_v26) (V c main_v28) (fun q => V c main_v31 (ix2 (0 : Fin 1) q)) :=
  (dat1 V c).arrAt_eq_of_cover 5 _ (fun t _ => flushed1 V c t) cover1

end Cert.KernelIdeal.Region

end
-- ==== Proof.FoldInput.lean ====
/-
  The first two boundaries of the idealized kernel's run.

  Before the first launch the host splits the edge list into sources and targets, counts each node's incoming
  edges (clamped below at one) and reshapes the first bias vector into a row. These are the same operations the
  reference applies to the same arguments, so each buffer holds the reference's value of that name; the bias row
  is read at an entry because the reference broadcasts the vector instead of reshaping it. The input launch then
  leaves the input layer in its result buffer, which is the reference's first hidden array.
-/
import proofs.«145428_j53197464928927_2_alg».proof.Proof.Gen.KernelIdeal.Frame
import proofs.«145428_j53197464928927_2_alg».proof.Proof.Gen.ReferenceIdeal.Read
import proofs.«145428_j53197464928927_2_alg».proof.Proof.KernelInput
import proofs.«145428_j53197464928927_2_alg».proof.Proof.RefStages
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.ValueIdx Idealize.ShloMosaic.TcCoe Idealize.SL.Sem
open Idealize.ShloMosaic.StableHlo
open scoped BigOperators

namespace Cert.KernelIdeal.Fold

open Cert.KernelIdeal Cert.KernelIdeal.Gen Cert.KernelIdeal.Region Cert.MeanConv
open Cert.ReferenceIdeal.Read

variable (m : (ℓ : Loc nD τ sig) → Buf (Elt Ideal) ℓ) (ρ : Dev nD → PrngReg) (c : Dev nD)

/-! ## After the first host stretch -/

theorem W1_arg0 : W1 m ρ c (Proc.devRef .tc main_arg0) = (m ((c : Thread nD τ).loc main_arg0)) := by
  show StableHlo.after hostOps0 (W0 m ρ c) (Proc.devRef .tc main_arg0) = _
  after_results
  all_goals (rfl)

theorem W1_arg2 : W1 m ρ c (Proc.devRef .tc main_arg2) = (m ((c : Thread nD τ).loc main_arg2)) := by
  show StableHlo.after hostOps0 (W0 m ρ c) (Proc.devRef .tc main_arg2) = _
  after_results
  all_goals (rfl)

theorem W1_arg3 : W1 m ρ c (Proc.devRef .tc main_arg3) = (m ((c : Thread nD τ).loc main_arg3)) := by
  show StableHlo.after hostOps0 (W0 m ρ c) (Proc.devRef .tc main_arg3) = _
  after_results
  all_goals (rfl)

theorem W1_arg4 : W1 m ρ c (Proc.devRef .tc main_arg4) = (m ((c : Thread nD τ).loc main_arg4)) := by
  show StableHlo.after hostOps0 (W0 m ρ c) (Proc.devRef .tc main_arg4) = _
  after_results
  all_goals (rfl)

theorem W1_arg5 : W1 m ρ c (Proc.devRef .tc main_arg5) = (m ((c : Thread nD τ).loc main_arg5)) := by
  show StableHlo.after hostOps0 (W0 m ρ c) (Proc.devRef .tc main_arg5) = _
  after_results
  all_goals (rfl)

theorem W1_arg6 : W1 m ρ c (Proc.devRef .tc main_arg6) = (m ((c : Thread nD τ).loc main_arg6)) := by
  show StableHlo.after hostOps0 (W0 m ρ c) (Proc.devRef .tc main_arg6) = _
  after_results
  all_goals (rfl)

theorem W1_arg7 : W1 m ρ c (Proc.devRef .tc main_arg7) = (m ((c : Thread nD τ).loc main_arg7)) := by
  show StableHlo.after hostOps0 (W0 m ρ c) (Proc.devRef .tc main_arg7) = _
  after_results
  all_goals (rfl)

theorem W1_arg8 : W1 m ρ c (Proc.devRef .tc main_arg8) = (m ((c : Thread nD τ).loc main_arg8)) := by
  show StableHlo.after hostOps0 (W0 m ρ c) (Proc.devRef .tc main_arg8) = _
  after_results
  all_goals (rfl)

/-- The edges' sources, targets and the clamped in-degree column, as the reference computes them. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  all_goals (rfl)

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  all_goals (rfl)

theorem W1_v10 : W1 m ρ c (Proc.devRef .tc main_v10) = val_main_v10 (F := Ideal) (m ((c : Thread nD τ).loc main_arg1)) := by
  show StableHlo.after hostOps0 (W0 m ρ c) (Proc.devRef .tc main_v10) = _
  after_results
  all_goals (rfl)

/-- The first bias, reshaped into a row, read at column `q`. -/
theorem W1_v11 (q : Fin 128) :
    (W1 m ρ c (Proc.devRef .tc main_v11) : S1x128.Idx → EReal) (ix2 (0 : Fin 1) q) = ((m ((c : Thread nD τ).loc main_arg3)) : S128.Idx → EReal) (ix1 q) := by
  have e : (W1 m ρ c (Proc.devRef .tc main_v11) : S1x128.Idx → EReal)
      = shapeCast S1x128 ((m ((c : Thread nD τ).loc main_arg3)) : S128.Idx → EReal) shapeCasts_S128_S1x128 := by
    show StableHlo.after hostOps0 (W0 m ρ c) (Proc.devRef .tc main_v11) = _
    after_results
    all_goals (rfl)
  rw [e]
  exact shapeCast_a_1a_apply _ _ 0 q

/-! ## After the input launch -/

/-- The input launch leaves the reference's first hidden array. -/
theorem W2_v12 : W2 m ρ c (Proc.devRef .tc main_v12) = val_main_v15 (F := Ideal) (m ((c : Thread nD τ).loc main_arg0)) (m ((c : Thread nD τ).loc main_arg2)) (m ((c : Thread nD τ).loc main_arg3)) := by
  refine (W2_arr m ρ c 3).trans ?_
  rw [result0 (V1 m ρ) c, Cert.ReferenceIdeal.Stage.input_eq]
  rw [show V1 m ρ c main_arg0 = _ from W1_arg0 m ρ c, show V1 m ρ c main_arg2 = _ from W1_arg2 m ρ c]
  exact congrArg _ (funext fun q => W1_v11 m ρ c q)

theorem W2_v1 : W2 m ρ c (Proc.devRef .tc main_v1) = val_main_v1 (F := Ideal) (m ((c : Thread nD τ).loc main_arg1)) :=
  (W2_of_ne m ρ c main_v1 (by decide)).trans (W1_v1 m ρ c)
theorem W2_v3 : W2 m ρ c (Proc.devRef .tc main_v3) = val_main_v3 (F := Ideal) (m ((c : Thread nD τ).loc main_arg1)) :=
  (W2_of_ne m ρ c main_v3 (by decide)).trans (W1_v3 m ρ c)
theorem W2_v10 : W2 m ρ c (Proc.devRef .tc main_v10) = val_main_v10 (F := Ideal) (m ((c : Thread nD τ).loc main_arg1)) :=
  (W2_of_ne m ρ c main_v10 (by decide)).trans (W1_v10 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)

end Cert.KernelIdeal.Fold

end
-- ==== Proof.FoldConv1.lean ====
/-
  The boundaries around convolution 1.

  Between two launches the host gathers the hidden array along the edges' sources, adds the gathered rows into
  the edges' targets, divides by the clamped in-degree, and slices this layer's two weight matrices and its bias
  out of the stacked parameters. The reference applies the same operations to the same operands, so each buffer
  holds the reference's value of that name (the bias row again read at an entry). The launch then leaves the
  convolution of these arrays, which by the reference's own stage lemma is its next hidden array.
-/
import proofs.«145428_j53197464928927_2_alg».proof.Proof.Gen.KernelIdeal.Frame
import proofs.«145428_j53197464928927_2_alg».proof.Proof.Gen.ReferenceIdeal.Read
import proofs.«145428_j53197464928927_2_alg».proof.Proof.KernelConv1
import proofs.«145428_j53197464928927_2_alg».proof.Proof.RefStages
import proofs.«145428_j53197464928927_2_alg».proof.Proof.FoldInput
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.ValueIdx Idealize.ShloMosaic.TcCoe Idealize.SL.Sem
open Idealize.ShloMosaic.StableHlo
open scoped BigOperators

namespace Cert.KernelIdeal.Fold

open Cert.KernelIdeal Cert.KernelIdeal.Gen Cert.KernelIdeal.Region Cert.MeanConv
open Cert.ReferenceIdeal.Read

variable (m : (ℓ : Loc nD τ sig) → Buf (Elt Ideal) ℓ) (ρ : Dev nD → PrngReg) (c : Dev nD)

/-! ## After the host stretch -/

theorem W3_v1 : W3 m ρ c (Proc.devRef .tc main_v1) = val_main_v1 (F := Ideal) (m ((c : Thread nD τ).loc main_arg1)) := by
  show StableHlo.after hostOps1 (W2 m ρ c) (Proc.devRef .tc main_v1) = _
  after_results
  all_goals (exact W2_v1 m ρ c)

theorem W3_v3 : W3 m ρ c (Proc.devRef .tc main_v3) = val_main_v3 (F := Ideal) (m ((c : Thread nD τ).loc main_arg1)) := by
  show StableHlo.after hostOps1 (W2 m ρ c) (Proc.devRef .tc main_v3) = _
  after_results
  all_goals (exact W2_v3 m ρ c)

theorem W3_v10 : W3 m ρ c (Proc.devRef .tc main_v10) = val_main_v10 (F := Ideal) (m ((c : Thread nD τ).loc main_arg1)) := by
  show StableHlo.after hostOps1 (W2 m ρ c) (Proc.devRef .tc main_v10) = _
  after_results
  all_goals (exact W2_v10 m ρ c)

theorem W3_arg4 : W3 m ρ c (Proc.devRef .tc main_arg4) = (m ((c : Thread nD τ).loc main_arg4)) := by
  show StableHlo.after hostOps1 (W2 m ρ c) (Proc.devRef .tc main_arg4) = _
  after_results
  all_goals (exact W2_arg4 m ρ c)

theorem W3_arg5 : W3 m ρ c (Proc.devRef .tc main_arg5) = (m ((c : Thread nD τ).loc main_arg5)) := by
  show StableHlo.after hostOps1 (W2 m ρ c) (Proc.devRef .tc main_arg5) = _
  after_results
  all_goals (exact W2_arg5 m ρ c)

theorem W3_arg6 : W3 m ρ c (Proc.devRef .tc main_arg6) = (m ((c : Thread nD τ).loc main_arg6)) := by
  show StableHlo.after hostOps1 (W2 m ρ c) (Proc.devRef .tc main_arg6) = _
  after_results
  all_goals (exact W2_arg6 m ρ c)

theorem W3_arg7 : W3 m ρ c (Proc.devRef .tc main_arg7) = (m ((c : Thread nD τ).loc main_arg7)) := by
  show StableHlo.after hostOps1 (W2 m ρ c) (Proc.devRef .tc main_arg7) = _
  after_results
  all_goals (exact W2_arg7 m ρ c)

theorem W3_arg8 : W3 m ρ c (Proc.devRef .tc main_arg8) = (m ((c : Thread nD τ).loc main_arg8)) := by
  show StableHlo.after hostOps1 (W2 m ρ c) (Proc.devRef .tc main_arg8) = _
  after_results
  all_goals (exact W2_arg8 m ρ c)

set_option maxHeartbeats 4000000 in
/-- The neighbour means of the current hidden array. -/
theorem W3_v24 : W3 m ρ c (Proc.devRef .tc main_v24) = val_main_v27 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v24) = _
  after_results_simp
  all_goals (rw [W2_v12 m ρ c, W2_v1 m ρ c, W2_v3 m ρ c, W2_v10 m ρ c]; rfl)

theorem W3_v12 : W3 m ρ c (Proc.devRef .tc main_v12) = val_main_v15 (F := Ideal) (m ((c : Thread nD τ).loc main_arg0)) (m ((c : Thread nD τ).loc main_arg2)) (m ((c : Thread nD τ).loc main_arg3)) := by
  show StableHlo.after hostOps1 (W2 m ρ c) (Proc.devRef .tc main_v12) = _
  after_results
  all_goals (exact W2_v12 m ρ c)

/-- This layer's weight matrices. -/
theorem W3_v26 : W3 m ρ c (Proc.devRef .tc main_v26) = val_main_v29 (F := Ideal) (m ((c : Thread nD τ).loc main_arg4)) := by
  show StableHlo.after hostOps1 (W2 m ρ c) (Proc.devRef .tc main_v26) = _
  after_results
  all_goals (rw [W2_arg4 m ρ c]; rfl)

theorem W3_v28 : W3 m ρ c (Proc.devRef .tc main_v28) = val_main_v37 (F := Ideal) (m ((c : Thread nD τ).loc main_arg6)) := by
  show StableHlo.after hostOps1 (W2 m ρ c) (Proc.devRef .tc main_v28) = _
  after_results
  all_goals (rw [W2_arg6 m ρ c]; rfl)

/-- This layer's bias, reshaped into a row, read at column `q`. -/
theorem W3_v31 (q : Fin 128) :
    (W3 m ρ c (Proc.devRef .tc main_v31) : S1x128.Idx → EReal) (ix2 (0 : Fin 1) q) = val_main_v32 (F := Ideal) (m ((c : Thread nD τ).loc main_arg5)) (ix1 q) := by
  have e : (W3 m ρ c (Proc.devRef .tc main_v31) : S1x128.Idx → EReal)
      = shapeCast S1x128 (val_main_v32 (F := Ideal) (m ((c : Thread nD τ).loc main_arg5)) : S128.Idx → EReal) shapeCasts_S128_S1x128 := by
    show StableHlo.after hostOps1 (W2 m ρ c) (Proc.devRef .tc main_v31) = _
    after_results
    all_goals (rw [W2_arg5 m ρ c]; rfl)
  rw [e]
  exact shapeCast_a_1a_apply _ _ 0 q

/-! ## After the launch -/

/-- The launch leaves the reference's next hidden array. -/
theorem W4_v32 : W4 m ρ c (Proc.devRef .tc main_v32) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ?_
  rw [result1 (V3 m ρ) c, Cert.ReferenceIdeal.Stage.conv1_eq]
  rw [show V3 m ρ c main_v24 = _ from W3_v24 m ρ c, show V3 m ρ c main_v12 = _ from W3_v12 m ρ c,
    show V3 m ρ c main_v26 = _ from W3_v26 m ρ c, show V3 m ρ c main_v28 = _ from W3_v28 m ρ c]
  exact congrArg _ (funext fun q => W3_v31 m ρ c q)

theorem W4_v1 : W4 m ρ c (Proc.devRef .tc main_v1) = val_main_v1 (F := Ideal) (m ((c : Thread nD τ).loc main_arg1)) :=
  (W4_of_ne m ρ c main_v1 (by decide)).trans (W3_v1 m ρ c)
theorem W4_v3 : W4 m ρ c (Proc.devRef .tc main_v3) = val_main_v3 (F := Ideal) (m ((c : Thread nD τ).loc main_arg1)) :=
  (W4_of_ne m ρ c main_v3 (by decide)).trans (W3_v3 m ρ c)
theorem W4_v10 : W4 m ρ c (Proc.devRef .tc main_v10) = val_main_v10 (F := Ideal) (m ((c : Thread nD τ).loc main_arg1)) :=
  (W4_of_ne m ρ c main_v10 (by decide)).trans (W3_v10 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)

end Cert.KernelIdeal.Fold

end
-- ==== Proof.FoldConv2.lean ====
/-
  The boundaries around convolution 2.

  Between two launches the host gathers the hidden array along the edges' sources, adds the gathered rows into
  the edges' targets, divides by the clamped in-degree, and slices this layer's two weight matrices and its bias
  out of the stacked parameters. The reference applies the same operations to the same operands, so each buffer
  holds the reference's value of that name (the bias row again read at an entry). The launch then leaves the
  convolution of these arrays, which by the reference's own stage lemma is its next hidden array.
-/
import proofs.«145428_j53197464928927_2_alg».proof.Proof.Gen.KernelIdeal.Frame
import proofs.«145428_j53197464928927_2_alg».proof.Proof.Gen.ReferenceIdeal.Read
import proofs.«145428_j53197464928927_2_alg».proof.Proof.KernelConv2
import proofs.«145428_j53197464928927_2_alg».proof.Proof.RefStages
import proofs.«145428_j53197464928927_2_alg».proof.Proof.FoldConv1
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.ValueIdx Idealize.ShloMosaic.TcCoe Idealize.SL.Sem
open Idealize.ShloMosaic.StableHlo
open scoped BigOperators

namespace Cert.KernelIdeal.Fold

open Cert.KernelIdeal Cert.KernelIdeal.Gen Cert.KernelIdeal.Region Cert.MeanConv
open Cert.ReferenceIdeal.Read

variable (m : (ℓ : Loc nD τ sig) → Buf (Elt Ideal) ℓ) (ρ : Dev nD → PrngReg) (c : Dev nD)

/-! ## After the host stretch -/

theorem W5_v1 : W5 m ρ c (Proc.devRef .tc main_v1) = val_main_v1 (F := Ideal) (m ((c : Thread nD τ).loc main_arg1)) := by
  show StableHlo.after hostOps2 (W4 m ρ c) (Proc.devRef .tc main_v1) = _
  after_results
  all_goals (exact W4_v1 m ρ c)

theorem W5_v3 : W5 m ρ c (Proc.devRef .tc main_v3) = val_main_v3 (F := Ideal) (m ((c : Thread nD τ).loc main_arg1)) := by
  show StableHlo.after hostOps2 (W4 m ρ c) (Proc.devRef .tc main_v3) = _
  after_results
  all_goals (exact W4_v3 m ρ c)

theorem W5_v10 : W5 m ρ c (Proc.devRef .tc main_v10) = val_main_v10 (F := Ideal) (m ((c : Thread nD τ).loc main_arg1)) := by
  show StableHlo.after hostOps2 (W4 m ρ c) (Proc.devRef .tc main_v10) = _
  after_results
  all_goals (exact W4_v10 m ρ c)

theorem W5_arg4 : W5 m ρ c (Proc.devRef .tc main_arg4) = (m ((c : Thread nD τ).loc main_arg4)) := by
  show StableHlo.after hostOps2 (W4 m ρ c) (Proc.devRef .tc main_arg4) = _
  after_results
  all_goals (exact W4_arg4 m ρ c)

theorem W5_arg5 : W5 m ρ c (Proc.devRef .tc main_arg5) = (m ((c : Thread nD τ).loc main_arg5)) := by
  show StableHlo.after hostOps2 (W4 m ρ c) (Proc.devRef .tc main_arg5) = _
  after_results
  all_goals (exact W4_arg5 m ρ c)

theorem W5_arg6 : W5 m ρ c (Proc.devRef .tc main_arg6) = (m ((c : Thread nD τ).loc main_arg6)) := by
  show StableHlo.after hostOps2 (W4 m ρ c) (Proc.devRef .tc main_arg6) = _
  after_results
  all_goals (exact W4_arg6 m ρ c)

theorem W5_arg7 : W5 m ρ c (Proc.devRef .tc main_arg7) = (m ((c : Thread nD τ).loc main_arg7)) := by
  show StableHlo.after hostOps2 (W4 m ρ c) (Proc.devRef .tc main_arg7) = _
  after_results
  all_goals (exact W4_arg7 m ρ c)

theorem W5_arg8 : W5 m ρ c (Proc.devRef .tc main_arg8) = (m ((c : Thread nD τ).loc main_arg8)) := by
  show StableHlo.after hostOps2 (W4 m ρ c) (Proc.devRef .tc main_arg8) = _
  after_results
  all_goals (exact W4_arg8 m ρ c)

set_option maxHeartbeats 4000000 in
/-- The neighbour means of the current hidden array. -/
theorem W5_v44 : W5 m ρ c (Proc.devRef .tc main_v44) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v44) = _
  after_results_simp
  all_goals (rw [W4_v32 m ρ c, W4_v1 m ρ c, W4_v3 m ρ c, W4_v10 m ρ c]; rfl)

theorem W5_v32 : W5 m ρ c (Proc.devRef .tc main_v32) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v32) = _
  after_results
  all_goals (exact W4_v32 m ρ c)

/-- This layer's weight matrices. -/
theorem W5_v46 : W5 m ρ c (Proc.devRef .tc main_v46) = val_main_v54 (F := Ideal) (m ((c : Thread nD τ).loc main_arg4)) := by
  show StableHlo.after hostOps2 (W4 m ρ c) (Proc.devRef .tc main_v46) = _
  after_results
  all_goals (rw [W4_arg4 m ρ c]; rfl)

theorem W5_v48 : W5 m ρ c (Proc.devRef .tc main_v48) = val_main_v62 (F := Ideal) (m ((c : Thread nD τ).loc main_arg6)) := by
  show StableHlo.after hostOps2 (W4 m ρ c) (Proc.devRef .tc main_v48) = _
  after_results
  all_goals (rw [W4_arg6 m ρ c]; rfl)

/-- This layer's bias, reshaped into a row, read at column `q`. -/
theorem W5_v51 (q : Fin 128) :
    (W5 m ρ c (Proc.devRef .tc main_v51) : S1x128.Idx → EReal) (ix2 (0 : Fin 1) q) = val_main_v57 (F := Ideal) (m ((c : Thread nD τ).loc main_arg5)) (ix1 q) := by
  have e : (W5 m ρ c (Proc.devRef .tc main_v51) : S1x128.Idx → EReal)
      = shapeCast S1x128 (val_main_v57 (F := Ideal) (m ((c : Thread nD τ).loc main_arg5)) : S128.Idx → EReal) shapeCasts_S128_S1x128 := by
    show StableHlo.after hostOps2 (W4 m ρ c) (Proc.devRef .tc main_v51) = _
    after_results
    all_goals (rw [W4_arg5 m ρ c]; rfl)
  rw [e]
  exact shapeCast_a_1a_apply _ _ 0 q

/-! ## After the launch -/

/-- The launch leaves the reference's next hidden array. -/
theorem W6_v52 : W6 m ρ c (Proc.devRef .tc main_v52) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 5).trans ?_
  rw [result2 (V5 m ρ) c, Cert.ReferenceIdeal.Stage.conv2_eq]
  rw [show V5 m ρ c main_v44 = _ from W5_v44 m ρ c, show V5 m ρ c main_v32 = _ from W5_v32 m ρ c,
    show V5 m ρ c main_v46 = _ from W5_v46 m ρ c, show V5 m ρ c main_v48 = _ from W5_v48 m ρ c]
  exact congrArg _ (funext fun q => W5_v51 m ρ c q)

theorem W6_v1 : W6 m ρ c (Proc.devRef .tc main_v1) = val_main_v1 (F := Ideal) (m ((c : Thread nD τ).loc main_arg1)) :=
  (W6_of_ne m ρ c main_v1 (by decide)).trans (W5_v1 m ρ c)
theorem W6_v3 : W6 m ρ c (Proc.devRef .tc main_v3) = val_main_v3 (F := Ideal) (m ((c : Thread nD τ).loc main_arg1)) :=
  (W6_of_ne m ρ c main_v3 (by decide)).trans (W5_v3 m ρ c)
theorem W6_v10 : W6 m ρ c (Proc.devRef .tc main_v10) = val_main_v10 (F := Ideal) (m ((c : Thread nD τ).loc main_arg1)) :=
  (W6_of_ne m ρ c main_v10 (by decide)).trans (W5_v10 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)
theorem W6_arg8 : W6 m ρ c (Proc.devRef .tc main_arg8) = (m ((c : Thread nD τ).loc main_arg8)) :=
  (W6_of_ne m ρ c main_arg8 (by decide)).trans (W5_arg8 m ρ c)

end Cert.KernelIdeal.Fold

end
-- ==== Proof.FoldConv3.lean ====
/-
  The boundaries around convolution 3.

  Between two launches the host gathers the hidden array along the edges' sources, adds the gathered rows into
  the edges' targets, divides by the clamped in-degree, and slices this layer's two weight matrices and its bias
  out of the stacked parameters. The reference applies the same operations to the same operands, so each buffer
  holds the reference's value of that name (the bias row again read at an entry). The launch then leaves the
  convolution of these arrays, which by the reference's own stage lemma is its next hidden array.
-/
import proofs.«145428_j53197464928927_2_alg».proof.Proof.Gen.KernelIdeal.Frame
import proofs.«145428_j53197464928927_2_alg».proof.Proof.Gen.ReferenceIdeal.Read
import proofs.«145428_j53197464928927_2_alg».proof.Proof.KernelConv3
import proofs.«145428_j53197464928927_2_alg».proof.Proof.RefStages
import proofs.«145428_j53197464928927_2_alg».proof.Proof.FoldConv2
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.ValueIdx Idealize.ShloMosaic.TcCoe Idealize.SL.Sem
open Idealize.ShloMosaic.StableHlo
open scoped BigOperators

namespace Cert.KernelIdeal.Fold

open Cert.KernelIdeal Cert.KernelIdeal.Gen Cert.KernelIdeal.Region Cert.MeanConv
open Cert.ReferenceIdeal.Read

variable (m : (ℓ : Loc nD τ sig) → Buf (Elt Ideal) ℓ) (ρ : Dev nD → PrngReg) (c : Dev nD)

/-! ## After the host stretch -/

theorem W7_arg7 : W7 m ρ c (Proc.devRef .tc main_arg7) = (m ((c : Thread nD τ).loc main_arg7)) := by
  show StableHlo.after hostOps3 (W6 m ρ c) (Proc.devRef .tc main_arg7) = _
  after_results
  all_goals (exact W6_arg7 m ρ c)

theorem W7_arg8 : W7 m ρ c (Proc.devRef .tc main_arg8) = (m ((c : Thread nD τ).loc main_arg8)) := by
  show StableHlo.after hostOps3 (W6 m ρ c) (Proc.devRef .tc main_arg8) = _
  after_results
  all_goals (exact W6_arg8 m ρ c)

set_option maxHeartbeats 4000000 in
/-- The neighbour means of the current hidden array. -/
theorem W7_v64 : W7 m ρ c (Proc.devRef .tc main_v64) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v64) = _
  after_results_simp
  all_goals (rw [W6_v52 m ρ c, W6_v1 m ρ c, W6_v3 m ρ c, W6_v10 m ρ c]; rfl)

theorem W7_v52 : W7 m ρ c (Proc.devRef .tc main_v52) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v52) = _
  after_results
  all_goals (exact W6_v52 m ρ c)

/-- This layer's weight matrices. -/
theorem W7_v66 : W7 m ρ c (Proc.devRef .tc main_v66) = val_main_v79 (F := Ideal) (m ((c : Thread nD τ).loc main_arg4)) := by
  show StableHlo.after hostOps3 (W6 m ρ c) (Proc.devRef .tc main_v66) = _
  after_results
  all_goals (rw [W6_arg4 m ρ c]; rfl)

theorem W7_v68 : W7 m ρ c (Proc.devRef .tc main_v68) = val_main_v87 (F := Ideal) (m ((c : Thread nD τ).loc main_arg6)) := by
  show StableHlo.after hostOps3 (W6 m ρ c) (Proc.devRef .tc main_v68) = _
  after_results
  all_goals (rw [W6_arg6 m ρ c]; rfl)

/-- This layer's bias, reshaped into a row, read at column `q`. -/
theorem W7_v71 (q : Fin 128) :
    (W7 m ρ c (Proc.devRef .tc main_v71) : S1x128.Idx → EReal) (ix2 (0 : Fin 1) q) = val_main_v82 (F := Ideal) (m ((c : Thread nD τ).loc main_arg5)) (ix1 q) := by
  have e : (W7 m ρ c (Proc.devRef .tc main_v71) : S1x128.Idx → EReal)
      = shapeCast S1x128 (val_main_v82 (F := Ideal) (m ((c : Thread nD τ).loc main_arg5)) : S128.Idx → EReal) shapeCasts_S128_S1x128 := by
    show StableHlo.after hostOps3 (W6 m ρ c) (Proc.devRef .tc main_v71) = _
    after_results
    all_goals (rw [W6_arg5 m ρ c]; rfl)
  rw [e]
  exact shapeCast_a_1a_apply _ _ 0 q

/-! ## After the launch -/

/-- The launch leaves the reference's next hidden array. -/
theorem W8_v72 : W8 m ρ c (Proc.devRef .tc main_v72) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 5).trans ?_
  rw [result3 (V7 m ρ) c, Cert.ReferenceIdeal.Stage.conv3_eq]
  rw [show V7 m ρ c main_v64 = _ from W7_v64 m ρ c, show V7 m ρ c main_v52 = _ from W7_v52 m ρ c,
    show V7 m ρ c main_v66 = _ from W7_v66 m ρ c, show V7 m ρ c main_v68 = _ from W7_v68 m ρ c]
  exact congrArg _ (funext fun q => W7_v71 m ρ c q)

theorem W8_arg7 : W8 m ρ c (Proc.devRef .tc main_arg7) = (m ((c : Thread nD τ).loc main_arg7)) :=
  (W8_of_ne m ρ c main_arg7 (by decide)).trans (W7_arg7 m ρ c)
theorem W8_arg8 : W8 m ρ c (Proc.devRef .tc main_arg8) = (m ((c : Thread nD τ).loc main_arg8)) :=
  (W8_of_ne m ρ c main_arg8 (by decide)).trans (W7_arg8 m ρ c)

end Cert.KernelIdeal.Fold

end
-- ==== Proof.FoldOutput.lean ====
/-
  The last two boundaries of the idealized kernel's run.

  Before the last launch the host only reshapes the output bias into a row. The launch leaves the output layer of
  the last hidden array, the output weights and that bias, which by the reference's stage lemma is its result.
-/
import proofs.«145428_j53197464928927_2_alg».proof.Proof.Gen.KernelIdeal.Frame
import proofs.«145428_j53197464928927_2_alg».proof.Proof.Gen.ReferenceIdeal.Read
import proofs.«145428_j53197464928927_2_alg».proof.Proof.KernelOutput
import proofs.«145428_j53197464928927_2_alg».proof.Proof.RefStages
import proofs.«145428_j53197464928927_2_alg».proof.Proof.FoldConv3
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.ValueIdx Idealize.ShloMosaic.TcCoe Idealize.SL.Sem
open Idealize.ShloMosaic.StableHlo
open scoped BigOperators

namespace Cert.KernelIdeal.Fold

open Cert.KernelIdeal Cert.KernelIdeal.Gen Cert.KernelIdeal.Region Cert.MeanConv
open Cert.ReferenceIdeal.Read

variable (m : (ℓ : Loc nD τ sig) → Buf (Elt Ideal) ℓ) (ρ : Dev nD → PrngReg) (c : Dev nD)

/-! ## After the last host stretch -/

theorem W9_v72 : W9 m ρ c (Proc.devRef .tc main_v72) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W8 m ρ c) (Proc.devRef .tc main_v72) = _
  after_results
  all_goals (exact W8_v72 m ρ c)

theorem W9_arg7 : W9 m ρ c (Proc.devRef .tc main_arg7) = (m ((c : Thread nD τ).loc main_arg7)) := by
  show StableHlo.after hostOps4 (W8 m ρ c) (Proc.devRef .tc main_arg7) = _
  after_results
  all_goals (exact W8_arg7 m ρ c)

/-- The output bias, reshaped into a row, read at column `q`. -/
theorem W9_v73 (q : Fin 64) :
    (W9 m ρ c (Proc.devRef .tc main_v73) : S1x64.Idx → EReal) (ix2 (0 : Fin 1) q) = ((m ((c : Thread nD τ).loc main_arg8)) : S64.Idx → EReal) (ix1 q) := by
  have e : (W9 m ρ c (Proc.devRef .tc main_v73) : S1x64.Idx → EReal)
      = shapeCast S1x64 ((m ((c : Thread nD τ).loc main_arg8)) : S64.Idx → EReal) shapeCasts_S64_S1x64 := by
    show StableHlo.after hostOps4 (W8 m ρ c) (Proc.devRef .tc main_v73) = _
    after_results
    all_goals (rw [W8_arg8 m ρ c]; rfl)
  rw [e]
  exact shapeCast_a_1a_apply _ _ 0 q

/-! ## After the last launch -/

/-- The result buffer ends at the reference's result, as a function of the launched arguments. -/
theorem W10_v74 : W10 m ρ c (Proc.devRef .tc main_v74) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 3).trans ?_
  rw [result4 (V9 m ρ) c, Cert.ReferenceIdeal.Stage.output_eq]
  rw [show V9 m ρ c main_v72 = _ from W9_v72 m ρ c, show V9 m ρ c main_arg7 = _ from W9_arg7 m ρ c]
  exact congrArg _ (funext fun q => W9_v73 m ρ c q)

end Cert.KernelIdeal.Fold

end
-- ==== Proof.lean ====
/-
  A three-layer mean-aggregation graph network (50000 nodes, 800000 edges): the kernel against its reference.

  Both programs compute
      h₀ = relu (x · W₀ + b₀),   hᵢ₊₁ = relu (mean-of-in-neighbours(hᵢ) · Wlᵢ + hᵢ · Wrᵢ + bᵢ)  (i = 0, 1, 2),   y = h₃ · W₁ + b₁.
  The kernel runs the five dense stages as launches over ten blocks of 5000 nodes and leaves the neighbour mean
  (gather along the edges, add into the targets, divide by the clamped in-degree) to the host; the reference is
  host operations throughout. On the extended reals a change of float format is the identity and a block product
  into a zero accumulator is the plain row-by-column sum, so each launch computes its layer on whole arrays
  (KernelInput, KernelConv1–3, KernelOutput over KernelBody), and each stage of the reference is the same layer
  (RefStages); the only rearrangement is that the reference adds a convolution's bias between its two products,
  which commutativity and associativity of addition absorb (Spec). The host operations between launches are the
  reference's own, applied to equal operands, so boundary by boundary every buffer of the kernel's run holds the
  reference's value of the same name (FoldInput … FoldOutput), and the result buffer ends at the reference's result
  as a function of the launched arguments. No finiteness of the inputs is used.

  The three frames are the generated ones (the reference's is its generated run with the result dropped), and the
  idealization rewrote nothing, so that claim is trivial.
-/
import proofs.«145428_j53197464928927_2_alg».proof.Defs
import proofs.«145428_j53197464928927_2_alg».proof.Proof.Gen.Kernel
import proofs.«145428_j53197464928927_2_alg».proof.Proof.Gen.Kernel.Skeleton
import proofs.«145428_j53197464928927_2_alg».proof.Proof.Gen.Kernel.Launch
import proofs.«145428_j53197464928927_2_alg».proof.Proof.Gen.Kernel.Points
import proofs.«145428_j53197464928927_2_alg».proof.Proof.Gen.Kernel.Frame
import proofs.«145428_j53197464928927_2_alg».proof.Proof.Gen.KernelIdeal
import proofs.«145428_j53197464928927_2_alg».proof.Proof.Gen.KernelIdeal.Skeleton
import proofs.«145428_j53197464928927_2_alg».proof.Proof.Gen.KernelIdeal.Launch
import proofs.«145428_j53197464928927_2_alg».proof.Proof.Gen.KernelIdeal.Points
import proofs.«145428_j53197464928927_2_alg».proof.Proof.Gen.KernelIdeal.Frame
import proofs.«145428_j53197464928927_2_alg».proof.Proof.Gen.ReferenceIdeal
import proofs.«145428_j53197464928927_2_alg».proof.Proof.Gen.Pre_finite_inputs
import proofs.«145428_j53197464928927_2_alg».proof.Proof.Gen.ReferenceIdeal.Run
import proofs.«145428_j53197464928927_2_alg».proof.Proof.Gen.ReferenceIdeal.Read
import proofs.«145428_j53197464928927_2_alg».proof.Proof.KernelRun
import proofs.«145428_j53197464928927_2_alg».proof.Proof.FoldOutput
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ =>
      (θ_run Cert.ReferenceIdeal.defs _ _).mono (fun _ h c => (h c).2) (Cert.ReferenceIdeal.Value.run (F := Ideal) m ρ)
  · -- both runs end at the reference's result function of the kernel's launched arguments
    intro m ρ m' ρ' _ hagree
    refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
    · exact (θ_run Cert.KernelIdeal.defs _ _).mono
        (fun r h c => ⟨(h c).1.trans (Cert.KernelIdeal.Fold.W10_v74 m ρ c), (h c).2⟩)
        (Cert.KernelIdeal.RunValue.run_named (F := Ideal) m ρ)
    · refine (θ_run Cert.ReferenceIdeal.defs _ _).mono (fun _ h c => ⟨(h c).1.trans ?_, (h c).2⟩)
        (Cert.ReferenceIdeal.Value.run (F := Ideal) m' ρ')
      rw [Cert.ReferenceIdeal.Read.val_main_v94_eq]
      obtain ⟨h0, h1, h2, h3, h4, h5, h6, h7, h8⟩ := hagree c
      rw [h0, h1, h2, h3, h4, h5, h6, h7, h8]⟩

end Cert.Proof

end
